-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x256 .f32) (main_arg1 : IVec S800000 32) (main_arg2 : IVec S800000 32) (main_arg3 : FVec F S800000 .f32) (main_arg4 : FVec F S256x64 .f32) (main_arg5 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S50000x64 : Shape := ⟨2, ![50000, 64]⟩
abbrev S2000x256 : Shape := ⟨2, ![2000, 256]⟩
abbrev S2000x64 : Shape := ⟨2, ![2000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 25
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x64, .f32⟩
  | .hbm, ⟨5, _⟩ => ⟨S64, .f32⟩
  | .hbm, ⟨6, _⟩ => ⟨S50000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S1x64, .f32⟩
  | .hbm, ⟨24, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x256_S256x64_S2000x64_1_0_0_1_n_n_wf : DotDims.WF S2000x256 S256x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x64 : Shape := ⟨2, ![256, 64]⟩
abbrev S64 : Shape := ⟨1, ![64]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x64, .f32⟩
  | .hbm, ⟨5, _⟩ => ⟨S64, .f32⟩
  | .hbm, ⟨6, _⟩ => ⟨S50000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S1x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run, with its result named.

  The program is two pipelined regions with a stretch of host operations between them. Its run leaves every
  unscoped buffer at the last boundary's contents; the result buffer is the second region's output array, so it ends
  holding what that region's write-backs leave: the region-entry contents overwritten, in point order, by each
  point's block. The six argument arrays end as launched: no host operation and no region writes one.
-/
import proofs.«160586_j45105746542853_1_alg».proof.Proof.Gen.KernelIdeal.Frame

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary is the second region's output array after all its write-backs. -/
theorem last_result (c : Dev nD) :
    W3 m ρ c (Proc.devRef .tc main_v15) = (dat1 (V2 m ρ) c).arrAt 2 cfg1.N :=
  W3_arr m ρ c 2

set_option backward.isDefEq.respectTransparency.types false in
/-- Every weakly fair execution of the program terminates, nothing faulting, with the result buffer at the second
    region's final output array and the argument arrays as launched. -/
theorem run_result : θ_run defs (onTc (τ := τ) (main (F := F))) ⟨m, fun _ => 0, ρ⟩ (fun r => ∀ c : Dev nD,
      r.2.mem ((c.tc : Thread nD τ).loc main_v15) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v15 (by decide))).trans (last_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Layer

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.ProductBlock.lean ====
/-
  What the first region's body computes from its two blocks.

  The body loads a 2000×256 block of rows of x and the whole 256×64 matrix w, narrows both to bf16 (at the exact
  values a change of format is the identity) and multiplies them into a zero accumulator. So the block it stores
  is, at row p and column q,

      Σ over k < 256 of  xblock(p, k) · w(k, q).
-/
import proofs.«160586_j45105746542853_1_alg».proof.Proof.Gen.KernelIdeal.Skeleton
import proofs.«160586_j45105746542853_1_alg».proof.Proof.LibPlainDot
import Idealize.ShloMosaic.Lib.ValueIdx
import Idealize.ShloMosaic.PureOps.Ideal.Laws

noncomputable section

namespace Cert.KernelIdeal.Layer

open Cert.KernelIdeal Cert.KernelIdeal.Gen
open Idealize.ShloMosaic Idealize.ShloMosaic.ValueIdx

/-- The stored block of the first region at an index: the row of the x block against the column of w. -/
theorem block_product (x0 : Vec Ideal S2000x256 .f32) (x1 : Vec Ideal S256x64 .f32) (j : S2000x64.Idx) :
    k0_pay1 (F := Ideal) x0 x1 j = ∑ k : Fin 256, x0 (ix2 (j 0) k) * x1 (ix2 k (j 1)) := by
  unfold k0_pay1
  exact Cert.LibPlainDot.matmul_zero_plain 2000 256 64 none (truncf (F := Ideal) .bf16 x0 bitsLt_bf16_f32)
    (truncf (F := Ideal) .bf16 x1 bitsLt_bf16_f32) j

end Cert.KernelIdeal.Layer

end
-- ==== Proof.Layer.lean ====
/-
  The layer both programs compute, as one function of the six argument arrays.

  With x : 50000×256, w : 256×64, edge lists src, dst : 800000 integers, edge weights vals : 800000 and bias : 64,

    product x w (r, q)   = Σ over k < 256 of x(r, k) · w(k, q)
    aggregate p src dst vals
                         = the scatter-add, into a 50000×64 array of zeros at the rows dst names, of the messages
                           vals(e) · p(src'(e), ·), where src'(e) is src(e) with 50000 added when it is negative
                           and the row is fetched by the host's gather
    layer (r, q)         = max (aggregate (product x w) src dst vals (r, q) + bias(q), 0).

  The gather and the scatter-add stay the host's own operations here: the two programs apply the same ones to the same
  edge lists, so nothing about which rows they touch is ever needed — only that the array they are applied to, the
  product, is the same.
-/
import proofs.«160586_j45105746542853_1_alg».proof.Proof.Gen.KernelIdeal
import Idealize.ShloMosaic.Lib.ValueIdx
import Idealize.ShloMosaic.PureOps.Ideal

noncomputable section

namespace Cert.KernelIdeal.Layer

open Cert.KernelIdeal Cert.KernelIdeal.Gen
open Idealize.ShloMosaic Idealize.ShloMosaic.ValueIdx

/-- The matrix product of a 50000×256 array and a 256×64 array, entry by entry. -/
def product (x : S50000x256.Idx → EReal) (w : S256x64.Idx → EReal) : S50000x64.Idx → EReal :=
  fun i => ∑ k : Fin 256, x (ix2 (i 0) k) * w (ix2 k (i 1))

/-- The edge aggregation of a 50000×64 array: gather the source rows (a negative source index wrapped by 50000),
    scale each by its edge weight, scatter-add into the destination rows of a zero array. -/
def aggregate (p : (⟨S50000x64, .f32⟩ : BufTy).Contents (Elt Ideal)) (src dst : (⟨S800000, .i32⟩ : BufTy).Contents (Elt Ideal))
    (vals : (⟨S800000, .f32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (F := Ideal)
      (broadcastInDim S800000x64 ![0, 1] bcast_S800000x1_S800000x64_0_1 (broadcastInDim S800000x1 ![0] bcast_S800000_S800000x1_0 vals))
      (Host.gather gather_S50000x64_S800000x1_S800000x64_1_0_n_n_0_1_164 p
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- A 1×64 row added to every row of a 50000×64 array, then the maximum with zero, entry by entry. -/
def bias_relu (a : S50000x64.Idx → EReal) (b : S1x64.Idx → EReal) : S50000x64.Idx → EReal :=
  fun i => max (a i + b (ix2 (0 : Fin 1) (i 1))) 0

/-- The whole layer, entry by entry. -/
def layer (x : (⟨S50000x256, .f32⟩ : BufTy).Contents (Elt Ideal)) (src dst : (⟨S800000, .i32⟩ : BufTy).Contents (Elt Ideal))
    (vals : (⟨S800000, .f32⟩ : BufTy).Contents (Elt Ideal)) (w : (⟨S256x64, .f32⟩ : BufTy).Contents (Elt Ideal))
    (bias : (⟨S64, .f32⟩ : BufTy).Contents (Elt Ideal)) : (⟨S50000x64, .f32⟩ : BufTy).Contents (Elt Ideal) :=
  fun i => max (aggregate (product x w) src dst vals i + bias (ix1 (i 1))) 0

theorem zero_offsets : (![0, 0] : Fin 2 → Nat) = fun _ => 0 := funext fun a => by fin_cases a <;> rfl

end Cert.KernelIdeal.Layer

end
-- ==== Proof.Product.lean ====
/-
  The first region's output array is the whole product x·w.

  The grid has 25 points. Point t reads rows 2000t … 2000t + 1999 of x and the whole of w, and writes back rows
  2000t … 2000t + 1999 of its output array; the column block is always the single one. What it writes back at row p
  of the block and column q is Σ_k x(2000t + p, k) · w(k, q): the block of ONE function of the two arrays,

      product x w (r, q) = Σ over k < 256 of x(r, k) · w(k, q).

  Every row r lies in the block of point r / 2000, so the 25 blocks cover the array, which therefore ends holding
  product x w, whatever it held before.
-/
import proofs.«160586_j45105746542853_1_alg».proof.Proof.Gen.KernelIdeal.Frame
import proofs.«160586_j45105746542853_1_alg».proof.Proof.ProductBlock
import proofs.«160586_j45105746542853_1_alg».proof.Proof.Layer
import Idealize.ShloMosaic.Lib.Pipeline.Value
import Idealize.ShloMosaic.Lib.ValueIdx

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem
open Idealize.ShloMosaic.Pipeline (Dat)

/-- The block indices of the first region's three windows at point t: x and the output move down the rows with t,
    w stays, and there is one column block. -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is its block of the product of the two arrays as the region finds them. -/
theorem flushed_product (c : Dev nD) (t : Fin cfg0.N) :
    (dat0 V c).flushed 2 t
      = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x64) zero_offsets]
  obtain ⟨e00, e01, e10, e11, e20, e21⟩ := block_indices0 t
  funext j
  show k0_pay1 (iblk0 V c 0 t) (iblk0 V c 1 t) j
    = product (V c main_arg0) (V c main_arg4) (((cfg0.win 2).blk t).view.emb j)
  refine (block_product (iblk0 V c 0 t) (iblk0 V c 1 t) j).trans ?_
  unfold product
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 256 + 1 * k.val = k.val
      omega
  have hw : iblk0 V c 1 t (ix2 k (j 1)) = V c main_arg4 (ix2 k ((((cfg0.win 2).blk t).view.emb j) 1)) := by
    show V c main_arg4 (((cfg0.win 1).blk t).view.emb (ix2 k (j 1))) = _
    refine congrArg (V c main_arg4) (funext fun a => Fin.ext ?_)
    match a with
    | ⟨0, _⟩ =>
      show win0_1.index t (0 : Fin 2) * 256 + 1 * k.val = k.val
      omega
    | ⟨1, _⟩ =>
      show win0_1.index t (1 : Fin 2) * 64 + 1 * (j 1).val = win0_2.index t (1 : Fin 2) * 64 + 1 * (j 1).val
      omega
  rw [hx, hw]

/-- An index of the output array is in point t's block iff each coordinate is in the block's range on its axis. -/
theorem mem_block0 (t : Fin cfg0.N) (i : S50000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v0).slice (win0_2.rect t)).set ↔ _
  rw [View.set_slice_whole, Rect.mem_set_unit]
  exact Iff.rfl

/-- Row r of the output array is written by point r / 2000. -/
theorem covered0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, e20, e21⟩ := block_indices0 t
  refine ⟨t, flush0_2 t, ?_⟩
  rw [mem_block0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 64 ≤ (i 1).val ∧ (i 1).val < win0_2.index t (1 : Fin 2) * 64 + 64
    omega

/-- The first region's output array after all its write-backs: the product of the two arrays it reads. -/
theorem product_array (c : Dev nD) :
    (dat0 V c).arrAt 2 cfg0.N = product (V c main_arg0) (V c main_arg4) :=
  (dat0 V c).arrAt_eq_of_cover 2 (product (V c main_arg0) (V c main_arg4)) (fun t _ => flushed_product V c t) covered0

end Cert.KernelIdeal.Layer

end
-- ==== Proof.BiasReluBlock.lean ====
/-
  What the second region's body computes from its two blocks.

  The body loads a 2000×64 block of rows of the aggregated array and the 1×64 bias row, repeats the bias row down the
  2000 rows, adds, and takes the maximum with zero. So the block it stores is, at row p and column q,

      max (ablock(p, q) + bias(0, q), 0).
-/
import proofs.«160586_j45105746542853_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Layer

open Cert.KernelIdeal Cert.KernelIdeal.Gen
open Idealize.ShloMosaic Idealize.ShloMosaic.ValueIdx

/-- The 1×64 row repeated down 2000 rows, read at an index: the row's entry in that column. -/
theorem bias_rows (x1 : Vec Ideal S1x64 .f32) (j : S2000x64.Idx) :
    broadcastTo S2000x64 x1 broadcasts_S1x64_S2000x64 j = x1 (ix2 (0 : Fin 1) (j 1)) :=
  broadcastTo_apply x1 broadcasts_S1x64_S2000x64 j (ix2 (0 : Fin 1) (j 1)) fun a => match a with
    | ⟨0, _⟩ => by show (0 : Nat) = if (1 : Nat) = 1 then 0 else _; rw [if_pos rfl]
    | ⟨1, _⟩ => by show (j 1).val = if (64 : Nat) = 1 then 0 else (j 1).val; rw [if_neg (by decide)]

/-- The stored block of the second region at an index: the entry plus its column's bias, cut off below at zero. -/
theorem block_bias_relu (x0 : Vec Ideal S2000x64 .f32) (x1 : Vec Ideal S1x64 .f32) (j : S2000x64.Idx) :
    k1_pay1 (F := Ideal) x0 x1 j = max (x0 j + x1 (ix2 (0 : Fin 1) (j 1))) 0 := by
  unfold k1_pay1
  rw [shapeCast_self, shapeCast_self]
  show max (x0 j + broadcastTo S2000x64 x1 broadcasts_S1x64_S2000x64 j) (Ideal.ofBits .f32 0x00000000#32) = _
  rw [Ideal.ofBits_zero_f32, bias_rows]

end Cert.KernelIdeal.Layer

end
-- ==== Proof.BiasRelu.lean ====
/-
  The second region's output array is the bias added and the negative part cut off, entry by entry.

  The grid has 25 points. Point t reads rows 2000t … 2000t + 1999 of the aggregated array a and the whole 1×64 bias
  row b, and writes back rows 2000t … 2000t + 1999 of its output array. What it writes back at row p of the block and
  column q is max (a(2000t + p, q) + b(0, q), 0): the block of ONE function of the two arrays,

      bias_relu a b (r, q) = max (a(r, q) + b(0, q), 0).

  Every row r lies in the block of point r / 2000, so the 25 blocks cover the array, which therefore ends holding
  bias_relu a b, whatever it held before.
-/
import proofs.«160586_j45105746542853_1_alg».proof.Proof.Gen.KernelIdeal.Frame
import proofs.«160586_j45105746542853_1_alg».proof.Proof.BiasReluBlock
import proofs.«160586_j45105746542853_1_alg».proof.Proof.Layer
import Idealize.ShloMosaic.Lib.Pipeline.Value
import Idealize.ShloMosaic.Lib.ValueIdx

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem
open Idealize.ShloMosaic.Pipeline (Dat)

/-- The block indices of the second region's three windows at point t: the aggregated array and the output move down
    the rows with t, the bias row stays, and there is one column block. -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is its block of bias_relu of the two arrays as the region finds them. -/
theorem flushed_bias_relu (c : Dev nD) (t : Fin cfg1.N) :
    (dat1 V c).flushed 2 t
      = ((cfg1.win 2).blk t).view.read (Elt Ideal) (bias_relu (V c main_v13) (V c main_v14)) := by
  show (cfg1.win 2).cut (grid1.coords t) ((dat1 V c).after 2 t) = _
  rw [after1_2]
  unfold out1_2
  rw [View.canon_unit_zero zero_offsets]
  simp only [View.ld_unit_zero (S := S2000x64) zero_offsets, View.ld_unit_zero (S := S1x64) zero_offsets]
  obtain ⟨e00, e01, e10, e11, e20, e21⟩ := block_indices1 t
  funext j
  show k1_pay1 (iblk1 V c 0 t) (iblk1 V c 1 t) j
    = bias_relu (V c main_v13) (V c main_v14) (((cfg1.win 2).blk t).view.emb j)
  refine (block_bias_relu (iblk1 V c 0 t) (iblk1 V c 1 t) j).trans ?_
  unfold bias_relu
  have ha : iblk1 V c 0 t j = V c main_v13 (((cfg1.win 2).blk t).view.emb j) := by
    show V c main_v13 (((cfg1.win 0).blk t).view.emb j) = _
    refine congrArg (V c main_v13) (funext fun a => Fin.ext ?_)
    match a with
    | ⟨0, _⟩ =>
      show win1_0.index t (0 : Fin 2) * 2000 + 1 * (j 0).val = win1_2.index t (0 : Fin 2) * 2000 + 1 * (j 0).val
      omega
    | ⟨1, _⟩ =>
      show win1_0.index t (1 : Fin 2) * 64 + 1 * (j 1).val = win1_2.index t (1 : Fin 2) * 64 + 1 * (j 1).val
      omega
  have hb : iblk1 V c 1 t (ix2 (0 : Fin 1) (j 1))
      = V c main_v14 (ix2 (0 : Fin 1) ((((cfg1.win 2).blk t).view.emb j) 1)) := by
    show V c main_v14 (((cfg1.win 1).blk t).view.emb (ix2 (0 : Fin 1) (j 1))) = _
    refine congrArg (V c main_v14) (funext fun a => Fin.ext ?_)
    match a with
    | ⟨0, _⟩ =>
      show win1_1.index t (0 : Fin 2) * 1 + 1 * 0 = 0
      omega
    | ⟨1, _⟩ =>
      show win1_1.index t (1 : Fin 2) * 64 + 1 * (j 1).val = win1_2.index t (1 : Fin 2) * 64 + 1 * (j 1).val
      omega
  rw [ha, hb]

/-- An index of the output array is in point t's block iff each coordinate is in the block's range on its axis. -/
theorem mem_block1 (t : Fin cfg1.N) (i : S50000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v15).slice (win1_2.rect t)).set ↔ _
  rw [View.set_slice_whole, Rect.mem_set_unit]
  exact Iff.rfl

/-- Row r of the output array is written by point r / 2000. -/
theorem covered1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, e20, e21⟩ := block_indices1 t
  refine ⟨t, flush1_2 t, ?_⟩
  rw [mem_block1]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 64 ≤ (i 1).val ∧ (i 1).val < win1_2.index t (1 : Fin 2) * 64 + 64
    omega

/-- The second region's output array after all its write-backs: bias_relu of the two arrays it reads. -/
theorem bias_relu_array (c : Dev nD) :
    (dat1 V c).arrAt 2 cfg1.N = bias_relu (V c main_v13) (V c main_v14) :=
  (dat1 V c).arrAt_eq_of_cover 2 (bias_relu (V c main_v13) (V c main_v14)) (fun t _ => flushed_bias_relu V c t) covered1

end Cert.KernelIdeal.Layer

end
-- ==== Proof.Between.lean ====
/-
  What the second region finds when it is entered.

  Between the two regions the host runs seventeen operations on the buffers as the first region left them. Read back
  at the two buffers the second region fetches:

    * the aggregated array is aggregate of the first region's output array and of the two edge lists and the edge
      weights, which the first region does not touch;
    * the bias row is the 64 bias values recast as a 1×64 array.

  And the first region's output array, at its exit, is what its write-backs left.
-/
import proofs.«160586_j45105746542853_1_alg».proof.Proof.Gen.KernelIdeal.Frame
import proofs.«160586_j45105746542853_1_alg».proof.Proof.Layer
import Idealize.ShloMosaic.Lib.StableHlo.Run

set_option maxRecDepth 16384

noncomputable section

namespace Cert.KernelIdeal.Layer

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- The aggregated array at the second region's entry, from the buffers at the first region's exit. -/
theorem entry_aggregated (c : Dev nD) :
    V2 m ρ c main_v13
      = aggregate (V1 m ρ c main_v0) (V1 m ρ c main_arg1) (V1 m ρ c main_arg2) (V1 m ρ c main_arg3) := by
  show StableHlo.after hostOps1 (W1 m ρ c) (Proc.devRef .tc main_v13) = _
  after_results
  rfl

/-- The bias row at the second region's entry: the bias values recast as a 1×64 array. -/
theorem entry_bias (c : Dev nD) :
    V2 m ρ c main_v14 = shapeCast S1x64 (V1 m ρ c main_arg5) shapeCasts_S64_S1x64 := by
  show StableHlo.after hostOps1 (W1 m ρ c) (Proc.devRef .tc main_v14) = _
  after_results
  rfl

/-- A buffer that is none of the first region's three arrays holds at its exit what it held at launch. -/
theorem exit_kept (c : Dev nD) (b : Ref sig .tc) (hb : ∀ w, Pipeline.arrRef spec0 w ≠ b) :
    V1 m ρ c b = m ((c : Thread nD τ).loc b) :=
  (W1_of_ne m ρ c b hb).trans rfl

/-- The first region's output buffer at its exit is its output array after all the write-backs. -/
theorem exit_output (c : Dev nD) : V1 m ρ c main_v0 = (dat0 (V0 m ρ) c).arrAt 2 cfg0.N :=
  W1_arr m ρ c 2

end Cert.KernelIdeal.Layer

end
-- ==== Proof.Result.lean ====
/-
  The idealized kernel computes the layer.

  Chaining the pieces: the first region's output array is product x w; the host stretch turns it, with the edge lists
  and weights as launched, into aggregate (product x w) src dst vals, and recasts the bias as a 1×64 row; the second
  region's output array is then bias_relu of these two, and the row read in column q is bias(q). So the result
  buffer ends holding, at (r, q),

      max (aggregate (product x w) src dst vals (r, q) + bias(q), 0) = layer (r, q).
-/
import proofs.«160586_j45105746542853_1_alg».proof.Proof.KernelRun
import proofs.«160586_j45105746542853_1_alg».proof.Proof.Product
import proofs.«160586_j45105746542853_1_alg».proof.Proof.BiasRelu
import proofs.«160586_j45105746542853_1_alg».proof.Proof.Between
import Idealize.ShloMosaic.Lib.Pipeline.Value

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem

/-- The 64 bias values recast as a 1×64 row, read in the column of an index: that column's bias. -/
theorem bias_row (b : (⟨S64, .f32⟩ : BufTy).Contents (Elt Ideal)) (i : S50000x64.Idx) :
    shapeCast S1x64 b shapeCasts_S64_S1x64 (ix2 (0 : Fin 1) (i 1)) = b (ix1 (i 1)) :=
  shapeCast_apply b shapeCasts_S64_S1x64 (ix2 (0 : Fin 1) (i 1)) (ix1 (i 1)) (by
    rw [Shape.rowMajor_val_one, Shape.rowMajor_val_two]
    show (i 1).val = 0 * 64 + (i 1).val
    omega)

variable (m : (ℓ : Loc nD τ sig) → Buf (Elt Ideal) ℓ) (ρ : Dev nD → PrngReg)

/-- The second region's output array after all its write-backs is the layer of the six arrays as launched. -/
theorem result_array (c : Dev nD) :
    (dat1 (V2 m ρ) c).arrAt 2 cfg1.N
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [bias_relu_array (V2 m ρ) c, entry_aggregated m ρ c, entry_bias m ρ c, exit_output m ρ c, product_array (V0 m ρ) c,
    exit_kept m ρ c main_arg1 (by decide), exit_kept m ρ c main_arg2 (by decide), exit_kept m ρ c main_arg3 (by decide),
    exit_kept m ρ c main_arg5 (by decide)]
  funext i
  unfold bias_relu layer
  rw [bias_row]

/-- Every weakly fair execution of the idealized kernel terminates, nothing faulting, with the result buffer at the
    layer of the argument arrays and the argument arrays as launched. -/
theorem run_layer : θ_run defs (onTc (τ := τ) (main (F := Ideal))) ⟨m, fun _ => 0, ρ⟩ (fun r => ∀ c : Dev nD,
      r.2.mem ((c.tc : Thread nD τ).loc main_v15)
        = layer (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_array m ρ c), (h c).2⟩) (run_result m ρ)

end Cert.KernelIdeal.Layer

end
-- ==== Proof.Reference.lean ====
/-
  The reference computes the layer.

  Its last stage is the maximum with zero of the sum of two arrays: the edge aggregation of the host's product of x
  and w, and the bias broadcast first to a 1×64 row and then down the 50000 rows. Entry (r, q) of the host's product
  is Σ_k x(r, k) · w(k, q); the gather, the scaling and the scatter-add are the same operations with the same
  dimension numbers as in the layer; the doubly broadcast bias at (r, q) is bias(q); and the zero it compares with is
  the extended real 0. So the stage is layer, entry by entry.
-/
import proofs.«160586_j45105746542853_1_alg».proof.Proof.Gen.ReferenceIdeal.Read
import proofs.«160586_j45105746542853_1_alg».proof.Proof.Layer
import proofs.«160586_j45105746542853_1_alg».proof.Proof.LibPlainDot
import Idealize.ShloMosaic.PureOps.Ideal.Laws

noncomputable section

namespace Cert.ReferenceIdeal.Layer

open Cert.ReferenceIdeal Cert.ReferenceIdeal.Gen Cert.ReferenceIdeal.Read
open Idealize.ShloMosaic Idealize.ShloMosaic.ValueIdx
open Cert.KernelIdeal.Layer (product aggregate layer)

/-- The host's product of x and w is the matrix product, entry by entry. -/
theorem dot_is_product (x0 : (⟨S50000x256, .f32⟩ : BufTy).Contents (Elt Ideal)) (x4 : (⟨S256x64, .f32⟩ : BufTy).Contents (Elt Ideal)) :
    val_main_v0 (F := Ideal) x0 x4 = product x0 x4 := by
  funext i
  unfold val_main_v0 product
  exact Cert.LibPlainDot.dotGeneral_plain 50000 256 64 none _ x0 x4 i

/-- The reference's scatter-add stage is the edge aggregation of its product stage: the same operations. -/
theorem scatter_is_aggregate (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x64, .f32⟩ : BufTy).Contents (Elt Ideal)) :
    val_main_v13 (F := Ideal) x0 x1 x2 x3 x4 = aggregate (val_main_v0 (F := Ideal) x0 x4) x1 x2 x3 := rfl

/-- The bias broadcast to a row and then down the rows, read at an index: the bias of that column. -/
theorem bias_index (i : S50000x64.Idx) : idx_main_v14 (idx_main_v15 i) = ix1 (i 1) :=
  funext fun a => match a with
    | ⟨0, _⟩ => rfl

/-- The reference's last stage is the layer. -/
theorem reference_is_layer (x0 : (⟨S50000x256, .f32⟩ : BufTy).Contents (Elt Ideal)) (x1 x2 : (⟨S800000, .i32⟩ : BufTy).Contents (Elt Ideal))
    (x3 : (⟨S800000, .f32⟩ : BufTy).Contents (Elt Ideal)) (x4 : (⟨S256x64, .f32⟩ : BufTy).Contents (Elt Ideal))
    (x5 : (⟨S64, .f32⟩ : BufTy).Contents (Elt Ideal)) :
    val_main_v17 (F := Ideal) x0 x1 x2 x3 x4 x5 = layer x0 x1 x2 x3 x4 x5 := by
  funext i
  rw [val_main_v17_apply, val_main_v16_apply, val_main_v15_apply, val_main_v14_apply, val_main_call0_v0_apply,
    val_main_call0_cst_apply, scatter_is_aggregate, dot_is_product, bias_index]
  show max (aggregate (product x0 x4) x1 x2 x3 i + x5 (ix1 (i 1))) (Ideal.ofBits .f32 0x00000000#32) = _
  rw [Ideal.ofBits_zero_f32]
  rfl

end Cert.ReferenceIdeal.Layer

end
-- ==== Proof.lean ====
/-
  A graph-convolution layer: out = max (segment_sum (vals · (x·w)[src], dst) + bias, 0).

  The kernel computes the dense product x·w in one pipelined region (25 blocks of 2000 rows; the operands narrowed to
  bf16, which at the exact values changes nothing; the products accumulated into zero), leaves the gather of the source
  rows, the scaling by the edge weights and the scatter-add into the destination rows to the host, and adds the bias and
  cuts off the negative part in a second pipelined region (again 25 blocks of 2000 rows). The reference does all of it
  on the host. Over the extended reals both results are, at row r and column q,

      max (aggregate (x·w) src dst vals (r, q) + bias(q), 0)

  with the same gather and scatter-add applied to the same edge lists: the kernel's block products tile x·w, whose
  entries are the host product's entries Σ_k x(r, k)·w(k, q); the bias reaches entry (r, q) as bias(q) through the
  kernel's 1×64 row repeated down the block as through the reference's two broadcasts. No law of the extended reals
  beyond these readings is used, so the finiteness of the inputs is never opened.

  The three frames: the two kernels' are the generated ones; the reference has no kernel, and its frame is its run with
  the result dropped. The idealization rewrote no operation, so there is nothing to preserve.
-/
import proofs.«160586_j45105746542853_1_alg».proof.Defs
import proofs.«160586_j45105746542853_1_alg».proof.Proof.Gen.Kernel
import proofs.«160586_j45105746542853_1_alg».proof.Proof.Gen.Kernel.Skeleton
import proofs.«160586_j45105746542853_1_alg».proof.Proof.Gen.Kernel.Launch
import proofs.«160586_j45105746542853_1_alg».proof.Proof.Gen.Kernel.Points
import proofs.«160586_j45105746542853_1_alg».proof.Proof.Gen.Kernel.Frame
import proofs.«160586_j45105746542853_1_alg».proof.Proof.Gen.KernelIdeal
import proofs.«160586_j45105746542853_1_alg».proof.Proof.Gen.KernelIdeal.Skeleton
import proofs.«160586_j45105746542853_1_alg».proof.Proof.Gen.KernelIdeal.Launch
import proofs.«160586_j45105746542853_1_alg».proof.Proof.Gen.KernelIdeal.Points
import proofs.«160586_j45105746542853_1_alg».proof.Proof.Gen.KernelIdeal.Frame
import proofs.«160586_j45105746542853_1_alg».proof.Proof.Gen.ReferenceIdeal
import proofs.«160586_j45105746542853_1_alg».proof.Proof.Gen.ReferenceIdeal.Run
import proofs.«160586_j45105746542853_1_alg».proof.Proof.Gen.ReferenceIdeal.Read
import proofs.«160586_j45105746542853_1_alg».proof.Proof.Gen.Pre_finite_inputs
import proofs.«160586_j45105746542853_1_alg».proof.Proof.Result
import proofs.«160586_j45105746542853_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments, the idealized kernel's result buffer ends at the layer of its
    arguments and the idealized reference's at its last stage of its own, which is the layer of the same arrays. -/
theorem algebraic : Cert.algebraic_KernelIdeal_ReferenceIdeal := by
  intro m ρ m' ρ' _ hagree
  refine ⟨_, Cert.KernelIdeal.Layer.run_layer m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v17_eq _ _ _ _ _ _).trans
    (Cert.ReferenceIdeal.Layer.reference_is_layer _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
